-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S16384x512 : Shape := ⟨2, ![16384, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S1024x512 .f32) (main_arg1 : IVec S1024 32) (main_arg2 : FVec F S16384x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S1024x512 : Shape := ⟨2, ![1024, 512]⟩
abbrev S1024 : Shape := ⟨1, ![1024]⟩
abbrev S16384x512 : Shape := ⟨2, ![16384, 512]⟩
abbrev S1024x16384 : Shape := ⟨2, ![1024, 16384]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S1024x16384, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1024, .f32⟩
  | .local _ .vmem, ⟨4, _⟩ => ⟨S1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x16384.size a
  hwx0_2 : ∀ i : grid0.Coords, EltTy.bits .f32 = 32 ∨ (Rect.block (s := S1024x16384) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S16384x512 : Shape := ⟨2, ![16384, 512]⟩
abbrev S512x16384 : Shape := ⟨2, ![512, 16384]⟩
abbrev S1024x16384 : Shape := ⟨2, ![1024, 16384]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S512x16384, .f32⟩
  | .hbm, ⟨4, _⟩ => ⟨S1024x16384, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  transposes_S16384x512_S512x16384_1_0 : S16384x512.Transposes [1, 0] S512x16384
  dot_S1024x512_S512x16384_S1024x16384_1_0_0_1_n_n_wf : DotDims.WF S1024x512 S512x16384 S1024x16384 [1] [0] [0] [1] [] []

variable [Facts₀]

def dot_S1024x512_S512x16384_S1024x16384_1_0_0_1_n_n : DotDims S1024x512 S512x16384 S1024x16384 where
  lhsContracting := [1]
  rhsContracting := [0]
  lhsNonContracting := [0]
  rhsNonContracting := [1]
  lhsBatch := []
  rhsBatch := []
  wf := dot_S1024x512_S512x16384_S1024x16384_1_0_0_1_n_n_wf

class Facts : Prop extends Facts₀ where

variable [Facts]
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibTrMatmul.lean ====
/-
  A matrix product into a zero accumulator whose dimension numbers contract the SECOND axis of both operands — an
  n-by-K array against an M-by-K array, the right operand read transposed — at an index.

  With no batch axis, the left operand's rows and the right operand's rows free, and the two column axes contracted,
  the entry at (p, q) of the product added to a zero array is the sum over k of left(p, k) · right(q, k). The record's
  six lists are taken as hypotheses; a printed record proves each by unfolding.
-/
import proofs.«120165_g8650064134880_cont_9to1c4b_193_2_alg».proof.Proof.LibDotStd
import Idealize.ShloMosaic.PureOps.Ideal.Laws
import Idealize.ShloMosaic.Lib.ValueIdx

noncomputable section

open scoped BigOperators

namespace Cert.Lib.TrMatmul

open Idealize.ShloMosaic Idealize.ShloMosaic.ValueIdx

/-- The matrix product into the zero splat, right operand transposed, at the ideal values, read at (p, q). -/
theorem matmul_tr_ix2 {n K M : ℕ} {φ₁ φ₂ : FTy}
    (d : DotDims (⟨2, ![n, K]⟩ : Shape) (⟨2, ![M, K]⟩ : Shape) (⟨2, ![n, M]⟩ : Shape)) (prec : Option ContractPrecision)
    (hlc : d.lhsContracting = [1]) (hrc : d.rhsContracting = [1]) (hln : d.lhsNonContracting = [0]) (hrn : d.rhsNonContracting = [0])
    (hlb : d.lhsBatch = []) (hrb : d.rhsBatch = [])
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  have hr : d.contr.rank = 1 := by rw [d.rank_contr, hlc]; rfl
  have hs : d.contr.size ⟨0, by omega⟩ = K := by
    unfold DotDims.contr
    simp [hlc, Shape.ofList]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact Cert.Lib.DotStd.lhsIdx_free d 0 hlb hln Nat.zero_lt_two _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact Cert.Lib.DotStd.rhsIdx_free d 0 hrb hlb 0 hln hrn Nat.one_lt_two _ _
    | ⟨1, _⟩ => exact (d.rhsIdx_val_of_single hrc _ _).trans hk)
  rw [el, er]

end Cert.Lib.TrMatmul

end
-- ==== Proof.BlockProduct.lean ====
/-
  What the kernel body computes from the two blocks it loads.

  The body rounds both loaded 1024-by-512 blocks to a narrower float format — the identity on the extended reals — and
  multiplies the first by the transpose of the second into a zero accumulator. So the entry at (p, q) of the 1024-by-1024
  block it stores is the sum over the 512 columns k of left(p, k) · right(q, k).
-/
import proofs.«120165_g8650064134880_cont_9to1c4b_193_2_alg».proof.Proof.Gen.KernelIdeal.Skeleton
import proofs.«120165_g8650064134880_cont_9to1c4b_193_2_alg».proof.Proof.LibTrMatmul

noncomputable section

open scoped BigOperators

namespace Cert.KernelIdeal.Block

open Cert.KernelIdeal Cert.KernelIdeal.Gen Idealize.ShloMosaic Idealize.ShloMosaic.ValueIdx

/-- The stored block at (p, q): row p of the left block dotted with row q of the right block. -/
theorem payload_ix2 (left right : Vec Ideal S1024x512 .f32) (p q : Fin 1024) :
    k0_pay1 (F := Ideal) left right (ix2 p q) = ∑ k : Fin 512, left (ix2 p k) * right (ix2 q k) := by
  unfold k0_pay1
  exact Cert.Lib.TrMatmul.matmul_tr_ix2 dot_S1024x512_S1024x512_S1024x1024_1_1_0_0_n_n none rfl rfl rfl rfl rfl rfl
    (truncf (F := Ideal) .bf16 left bitsLt_bf16_f32) (truncf (F := Ideal) .bf16 right bitsLt_bf16_f32) p q

end Cert.KernelIdeal.Block

end
-- ==== Proof.RowDots.lean ====
/-
  The product of one matrix with the transpose of another, entry by entry.

  For a 1024-by-512 array `x` and a 16384-by-512 array `bank`, the entry at (p, n) of `x · bankᵀ` is the dot product of
  row p of `x` with row n of `bank`: the sum over the 512 columns k of x(p, k) · bank(n, k), taken on the extended
  reals. Both programs compute this one sum, in this one order of k; no law beyond reading each side at an index is needed,
  so nothing here asks the entries to be finite.
-/
import Idealize.ShloMosaic.PureOps.Ideal
import Idealize.ShloMosaic.Lib.ValueIdx

noncomputable section

open scoped BigOperators

namespace Cert.RowDots

open Idealize.ShloMosaic Idealize.ShloMosaic.ValueIdx

/-- Every row of `x` dotted with every row of `bank`: entry (p, n) is the sum over k of x(p, k) · bank(n, k). -/
def rowDots (x : FVec Ideal (⟨2, ![1024, 512]⟩ : Shape) .f32) (bank : FVec Ideal (⟨2, ![16384, 512]⟩ : Shape) .f32) :
    FVec Ideal (⟨2, ![1024, 16384]⟩ : Shape) .f32 :=
  fun i => ∑ k : Fin 512, x (ix2 (⟨(i 0).val, (i 0).isLt⟩ : Fin 1024) k) * bank (ix2 (⟨(i 1).val, (i 1).isLt⟩ : Fin 16384) k)

/-- The same, with the entry's two coordinates named. -/
theorem rowDots_ix2 (x : FVec Ideal (⟨2, ![1024, 512]⟩ : Shape) .f32) (bank : FVec Ideal (⟨2, ![16384, 512]⟩ : Shape) .f32)
    (p : Fin 1024) (n : Fin 16384) :
    rowDots x bank (ix2 p n) = ∑ k : Fin 512, x (ix2 p k) * bank (ix2 n k) := rfl

end Cert.RowDots

end
-- ==== Proof.KernelValue.lean ====
/-
  The kernel's result array, read off its run.

  The grid has 16 points. At point t the body sees the whole of `x` (its window never moves), rows 1024·t … 1024·t + 1023
  of the bank, and writes columns 1024·t … 1024·t + 1023 of the result. By `payload_ix2` the entry it writes at row p and
  column 1024·t + q is row p of `x` dotted with row 1024·t + q of the bank — the entry of `rowDots x bank` there. Column n
  of the result lies in the block of point n / 1024, so the 16 blocks cover the result, which therefore ends as
  `rowDots x bank`.
-/
import proofs.«120165_g8650064134880_cont_9to1c4b_193_2_alg».proof.Proof.Gen.KernelIdeal.Value
import proofs.«120165_g8650064134880_cont_9to1c4b_193_2_alg».proof.Proof.BlockProduct
import proofs.«120165_g8650064134880_cont_9to1c4b_193_2_alg».proof.Proof.RowDots
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.RowDots

variable (m : (ℓ : Loc nD τ sig) → Buf (Elt Ideal) ℓ) (ρ : Dev nD → PrngReg)

theorem hz : (![0, 0] : Fin 2 → Nat) = fun _ => 0 := funext fun a => by fin_cases a <;> rfl

/-- Where the three windows sit at point t: `x` at block (0, 0), the bank at row block t, the result at column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Row q of the b-th block of 1024 rows is a row of the bank. -/
theorem row_lt (b : ℕ) (hb : b < 16) (q : Fin 1024) : b * 1024 + q.val < 16384 := by have := q.isLt; omega

/-- An entry of the stored block is the entry of `rowDots` at the same row and at the block's column offset plus the
    column, once the loaded blocks are known to be `x` and the bank's rows from the offset on. -/
theorem block_entry (left right : Vec Ideal S1024x512 .f32) (x : FVec Ideal (⟨2, ![1024, 512]⟩ : Shape) .f32)
    (bank : FVec Ideal (⟨2, ![16384, 512]⟩ : Shape) .f32) (b : ℕ) (hb : b < 16)
    (hl : ∀ (p : Fin 1024) (k : Fin 512), left (ix2 p k) = x (ix2 p k))
    (hr : ∀ (q : Fin 1024) (k : Fin 512), right (ix2 q k) = bank (ix2 (⟨b * 1024 + q.val, row_lt b hb q⟩ : Fin 16384) k))
    (j : (⟨2, ![1024, 1024]⟩ : Shape).Idx) (i : (⟨2, ![1024, 16384]⟩ : Shape).Idx)
    (h0 : (i 0).val = (j 0).val) (h1 : (i 1).val = b * 1024 + (j 1).val) :
    k0_pay1 (F := Ideal) left right j = rowDots x bank i := by
  obtain ⟨p, q, rfl⟩ : ∃ (p : Fin 1024) (q : Fin 1024), j = ix2 p q := ⟨j 0, j 1, eq_ix2 j⟩
  obtain ⟨p', n, rfl⟩ : ∃ (p' : Fin 1024) (n : Fin 16384), i = ix2 p' n := ⟨i 0, i 1, eq_ix2 i⟩
  obtain rfl : p' = p := Fin.ext h0
  have hn : n = (⟨b * 1024 + q.val, row_lt b hb q⟩ : Fin 16384) := Fin.ext h1
  rw [Cert.KernelIdeal.Block.payload_ix2, rowDots_ix2, hn]
  exact Finset.sum_congr rfl fun k _ => by rw [hl, hr]

/-- The first window's block at any point is `x` itself. -/
theorem left_block (c : Dev nD) (t : Fin cfg0.N) (p : Fin 1024) (k : Fin 512) :
    (iblk m c 0 t : Vec Ideal S1024x512 .f32) (ix2 p k)
      = (m ((c : Thread nD τ).loc main_arg0) : S1024x512.Idx → Elt Ideal .f32) (ix2 p k) := by
  obtain ⟨e0, e1, -, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 1024 + 1 * p.val = p.val; rw [e0]; omega
  | ⟨1, _⟩ => show win0_0.index t (1 : Fin 2) * 512 + 1 * k.val = k.val; rw [e1]; omega

/-- The second window's block at point t is rows 1024·t onward of the bank. -/
theorem right_block (c : Dev nD) (t : Fin cfg0.N) (ht : t.val < 16) (q : Fin 1024) (k : Fin 512) :
    (iblk m c 1 t : Vec Ideal S1024x512 .f32) (ix2 q k)
      = (m ((c : Thread nD τ).loc main_arg2) : S16384x512.Idx → Elt Ideal .f32)
          (ix2 (⟨t.val * 1024 + q.val, row_lt t.val ht q⟩ : Fin 16384) k) := by
  obtain ⟨-, -, e0, e1, -, -⟩ := idx_facts t
  unfold iblk
  rw [View.read_apply]
  show V m c main_arg2 _ = m (c.tc.loc main_arg2) _
  unfold V
  congr 1
  funext a
  apply Fin.ext
  match a with
  | ⟨0, _⟩ => show win0_1.index t (0 : Fin 2) * 1024 + 1 * q.val = t.val * 1024 + q.val; rw [e0]; omega
  | ⟨1, _⟩ => show win0_1.index t (1 : Fin 2) * 512 + 1 * k.val = k.val; rw [e1]; omega

/-- What point t writes back is block t of `rowDots x bank`. -/
theorem flushed_eq (c : Dev nD) (t : Fin cfg0.N) :
    (dats m 0 c).flushed 2 t = ((cfg0.win 2).blk t).view.read (Elt Ideal)
      (rowDots (m ((c : Thread nD τ).loc main_arg0)) (m ((c : Thread nD τ).loc main_arg2))) := by
  rw [flushed2]
  unfold out0_2
  rw [View.canon_unit_zero hz]
  simp only [View.ld_unit_zero (S := S1024x512) hz]
  obtain ⟨-, -, -, -, e0, e1⟩ := idx_facts t
  have hN : cfg0.N = 16 := N_0
  funext j
  have ht : t.val < 16 := by have := t.isLt; omega
  refine block_entry (iblk m c 0 t) (iblk m c 1 t) _ _ t.val ht
    (left_block m c t) (right_block m c t ht) j (((cfg0.win 2).blk t).view.emb j) ?_ ?_
  · show win0_2.index t (0 : Fin 2) * 1024 + 1 * (j 0).val = (j 0).val
    rw [e0]; omega
  · show win0_2.index t (1 : Fin 2) * 1024 + 1 * (j 1).val = t.val * 1024 + (j 1).val
    rw [e1]; omega

/-- An index of the result is in point t's block iff each coordinate is in the block's range on its axis. -/
theorem mem_blk (t : Fin cfg0.N) (i : S1024x16384.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the block of the point its column selects. -/
theorem covered (i : S1024x16384.Idx) :
    ∃ t : Fin cfg0.N, (cfg0.win 2).flush t = true ∧ i ∈ ((cfg0.win 2).blk t).view.set := by
  have hN : cfg0.N = 16 := N_0
  have hi0 : (i 0).val < 1024 := (i 0).isLt
  have hi1 : (i 1).val < 16384 := (i 1).isLt
  let t : Fin cfg0.N := ⟨(i 1).val / 1024, by omega⟩
  have ht : t.val = (i 1).val / 1024 := rfl
  obtain ⟨-, -, -, -, e0, e1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 1024 ≤ (i 1).val ∧ (i 1).val < win0_2.index t (1 : Fin 2) * 1024 + 1024; rw [e1, ht]; omega

/-- So the result array ends as `rowDots x bank`. -/
theorem final (c : Dev nD) : (dats m 0 c).arrAt 2 cfg0.N
    = rowDots (m ((c : Thread nD τ).loc main_arg0)) (m ((c : Thread nD τ).loc main_arg2)) :=
  (dats m 0 c).arrAt_eq_of_cover 2 (rowDots (m ((c : Thread nD τ).loc main_arg0)) (m ((c : Thread nD τ).loc main_arg2)))
    (fun t _ => flushed_eq m c t) covered

/-- The kernel's run, read: the result array at `rowDots x bank`, the arguments unchanged. -/
theorem run : θ_run defs (onTc (τ := τ) (main (F := Ideal))) ⟨m, fun _ => 0, ρ⟩ fun r => ∀ c : Dev nD,
      r.2.mem ((c : Thread nD τ).loc main_v0) = rowDots (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.ReferenceValue.lean ====
/-
  The reference computes the row dot products.

  The reference first transposes the bank — entry (k, n) of the transpose is entry (n, k) of the bank — and then takes the
  ordinary matrix product of `x` with it: entry (p, n) is the sum over k of x(p, k) · bankᵀ(k, n) = x(p, k) · bank(n, k).
  That is `rowDots x bank` at (p, n), term by term in the same order of k.
-/
import proofs.«120165_g8650064134880_cont_9to1c4b_193_2_alg».proof.Proof.Gen.ReferenceIdeal.Read
import proofs.«120165_g8650064134880_cont_9to1c4b_193_2_alg».proof.Proof.RowDots

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowDots

/-- The host's product of `x` with the transposed bank is `rowDots x bank`. -/
theorem product_eq_rowDots (x : (⟨S1024x512, .f32⟩ : BufTy).Contents (Elt Ideal)) (bank : (⟨S16384x512, .f32⟩ : BufTy).Contents (Elt Ideal)) :
    val_main_v1 (F := Ideal) x bank = rowDots x bank := by
  funext i
  rw [val_main_v1_apply]
  refine Finset.sum_congr rfl fun k _ => ?_
  rw [val_main_v0_apply]
  -- the left factor sits at (i₀, k); the right factor, read through the transpose, at (i₁, k)
  have el : lidx_main_v1 i k = ix2 (⟨(i 0).val, (i 0).isLt⟩ : Fin 1024) k :=
    funext fun a => Fin.ext (by match a with | ⟨0, _⟩ => rfl | ⟨1, _⟩ => rfl)
  have er : idx_main_v0 (ridx_main_v1 i k) = ix2 (⟨(i 1).val, (i 1).isLt⟩ : Fin 16384) k :=
    funext fun a => Fin.ext (by match a with | ⟨0, _⟩ => rfl | ⟨1, _⟩ => rfl)
  rw [el, er]

end Cert.ReferenceIdeal.RefValue

end
-- ==== Proof.lean ====
/-
  The kernel and the reference both compute `x · bankᵀ` for a 1024-by-512 array `x` and a 16384-by-512 array `bank`.

  The kernel tiles the result's 16384 columns into 16 blocks of 1024: at each grid point it multiplies the whole of `x`
  by the transpose of 1024 rows of the bank (both rounded to a narrower float format first, which is the identity on the
  extended reals) into a zero accumulator. The reference transposes the bank and takes one whole matrix product. Read at an
  entry (p, n), both are the sum over the 512 columns k of x(p, k) · bank(n, k), in the same order of k (`RowDots.rowDots`);
  the kernel's array is that function by covering the result with the 16 blocks (`KernelIdeal.Whole.run`), the reference's by
  reading its two operations at an index (`ReferenceIdeal.RefValue.product_eq_rowDots`). No entry needs to be finite: no
  distributive law or cancellation is used. The third argument of both programs (an integer vector) is read by neither.

  The idealization rewrote no operation, so the word-level kernel's idealized reading is its own text.
-/
import proofs.«120165_g8650064134880_cont_9to1c4b_193_2_alg».proof.Defs
import proofs.«120165_g8650064134880_cont_9to1c4b_193_2_alg».proof.Proof.Gen.Kernel
import proofs.«120165_g8650064134880_cont_9to1c4b_193_2_alg».proof.Proof.Gen.Kernel.Skeleton
import proofs.«120165_g8650064134880_cont_9to1c4b_193_2_alg».proof.Proof.Gen.Kernel.Launch
import proofs.«120165_g8650064134880_cont_9to1c4b_193_2_alg».proof.Proof.Gen.Kernel.Points
import proofs.«120165_g8650064134880_cont_9to1c4b_193_2_alg».proof.Proof.Gen.Kernel.Frame
import proofs.«120165_g8650064134880_cont_9to1c4b_193_2_alg».proof.Proof.Gen.KernelIdeal
import proofs.«120165_g8650064134880_cont_9to1c4b_193_2_alg».proof.Proof.Gen.KernelIdeal.Skeleton
import proofs.«120165_g8650064134880_cont_9to1c4b_193_2_alg».proof.Proof.Gen.KernelIdeal.Launch
import proofs.«120165_g8650064134880_cont_9to1c4b_193_2_alg».proof.Proof.Gen.KernelIdeal.Points
import proofs.«120165_g8650064134880_cont_9to1c4b_193_2_alg».proof.Proof.Gen.KernelIdeal.Frame
import proofs.«120165_g8650064134880_cont_9to1c4b_193_2_alg».proof.Proof.Gen.ReferenceIdeal
import proofs.«120165_g8650064134880_cont_9to1c4b_193_2_alg».proof.Proof.Gen.Pre_finite_inputs
import proofs.«120165_g8650064134880_cont_9to1c4b_193_2_alg».proof.Proof.Gen.KernelIdeal.Value
import proofs.«120165_g8650064134880_cont_9to1c4b_193_2_alg».proof.Proof.Gen.ReferenceIdeal.Run
import proofs.«120165_g8650064134880_cont_9to1c4b_193_2_alg».proof.Proof.Gen.ReferenceIdeal.Read
import proofs.«120165_g8650064134880_cont_9to1c4b_193_2_alg».proof.Proof.KernelValue
import proofs.«120165_g8650064134880_cont_9to1c4b_193_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference is two host operations; its run, with the result forgotten, is its frame. -/
theorem frame_reference : Cert.frame_ReferenceIdeal :=
  fun m ρ _ => (θ_run Cert.ReferenceIdeal.defs _ _).mono (fun _ h c => (h c).2)
    (Cert.ReferenceIdeal.Value.run (F := Ideal) m ρ)

/-- Both result arrays end as `rowDots x bank` of arguments that agree. -/
theorem algebraic : Cert.algebraic_KernelIdeal_ReferenceIdeal := by
  intro m ρ m' ρ' _ hagree
  refine ⟨fun c => Cert.RowDots.rowDots (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.product_eq_rowDots, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
